-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x4096 : Shape := ⟨3, ![16, 1024, 4096]⟩
abbrev S16x1024x1024 : Shape := ⟨3, ![16, 1024, 1024]⟩
abbrev S1024x4096 : Shape := ⟨2, ![1024, 4096]⟩
abbrev S1024 : Shape := ⟨1, ![1024]⟩
abbrev S_ : Shape := ⟨0, ![]⟩

class Facts : Prop where
  bcast_S_S16x1024x4096 : S_.BroadcastsInDim S16x1024x4096 (![] : Fin 0 → Fin S16x1024x4096.rank)
  reducesTo_S16x1024x4096_S_d0_1_2 : S16x1024x4096.ReducesTo [0, 1, 2] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S16x1024x4096 .f32) (main_arg1 : FVec F S16x1024x1024 .f32) (main_arg2 : FVec F S1024x4096 .f32) (main_arg3 : FVec F S1024 .f32) : IVec S_ 1 :=
  let main_v0 : FVec F S16x1024x4096 .f32 := Host.absf main_arg0
  let main_cst : FVec F S_ .f32 := constant S_ .f32 0x7F800000#32
  let main_v1 : FVec F S16x1024x4096 .f32 := broadcastInDim S16x1024x4096 ![] bcast_S_S16x1024x4096 main_cst
  let main_v2 : IVec S16x1024x4096 1 := cmpf .olt main_v0 main_v1
  let main_c : IVec S_ 1 := constantI S_ 1 1#1
  let main_v3 : IVec S_ 1 := (fun x v => Host.reduce IntOp.andi x v reducesTo_S16x1024x4096_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S16x1024x4096 : Shape := ⟨3, ![16, 1024, 4096]⟩
abbrev S16x1024x1024 : Shape := ⟨3, ![16, 1024, 1024]⟩
abbrev S1024x4096 : Shape := ⟨2, ![1024, 4096]⟩
abbrev S1024 : Shape := ⟨1, ![1024]⟩
abbrev S_ : Shape := ⟨0, ![]⟩
abbrev S1024x1 : Shape := ⟨2, ![1024, 1]⟩
abbrev S16384x4096 : Shape := ⟨2, ![16384, 4096]⟩
abbrev S16384x1024 : Shape := ⟨2, ![16384, 1024]⟩
abbrev S1x1024 : Shape := ⟨2, ![1, 1024]⟩
abbrev S256x4096 : Shape := ⟨2, ![256, 4096]⟩
abbrev S256x1024 : Shape := ⟨2, ![256, 1024]⟩

abbrev nBuf : Space → Nat
  | .hbm => 33
  | .vmem => 8
  | .smem => 0
  | _ => 0

abbrev bufTy : (tb : Table) → Fin (tcTables nBuf tb) → BufTy
  | .hbm, ⟨0, _⟩ => ⟨S16x1024x4096, .f32⟩
  | .hbm, ⟨1, _⟩ => ⟨S16x1024x1024, .f32⟩
  | .hbm, ⟨2, _⟩ => ⟨S1024x4096, .f32⟩
  | .hbm, ⟨3, _⟩ => ⟨S1024, .f32⟩
  | .hbm, ⟨4, _⟩ => ⟨S1024x4096, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x4096, .f32⟩
  | .hbm, ⟨15, _⟩ => ⟨S1024x4096, .f32⟩
  | .hbm, ⟨16, _⟩ => ⟨S1024x4096, .f32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S1024x4096, .f32⟩
  | .hbm, ⟨21, _⟩ => ⟨S1024x4096, .f32⟩
  | .hbm, ⟨22, _⟩ => ⟨S_, .f32⟩
  | .hbm, ⟨23, _⟩ => ⟨S1024x4096, .f32⟩
  | .hbm, ⟨24, _⟩ => ⟨S1024x4096, .f32⟩
  | .hbm, ⟨25, _⟩ => ⟨S1024x4096, .f32⟩
  | .hbm, ⟨26, _⟩ => ⟨S1024x4096, .f32⟩
  | .hbm, ⟨27, _⟩ => ⟨S1024x4096, .bf16⟩
  | .hbm, ⟨28, _⟩ => ⟨S16384x4096, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16x1024x1024, .f32⟩
  | .local _ .vmem, ⟨0, _⟩ => ⟨S256x4096, .f32⟩
  | .local _ .vmem, ⟨1, _⟩ => ⟨S256x4096, .f32⟩
  | .local _ .vmem, ⟨2, _⟩ => ⟨S1024x4096, .bf16⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S16x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S1024x4096_S1024_d1 : S1024x4096.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x4096_0_1 : S1024x1.BroadcastsInDim S1024x4096 (![0, 1] : Fin 2 → Fin S1024x4096.rank)
  bcast_S_S1024x4096 : S_.BroadcastsInDim S1024x4096 (![] : Fin 0 → Fin S1024x4096.rank)
  bitsLt_bf16_f32 : FTy.bits .bf16 < FTy.bits .f32
  shapeCasts_S16x1024x4096_S16384x4096 : S16x1024x4096.ShapeCasts S16384x4096
  shapeCasts_S16x1024x1024_S16384x1024 : S16x1024x1024.ShapeCasts S16384x1024
  shapeCasts_S1024_S1x1024 : S1024.ShapeCasts S1x1024
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S16384x1024_S16x1024x1024 : S16384x1024.ShapeCasts S16x1024x1024
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S16384x1024.size a
  hwx0_3 : ∀ i : grid0.Coords, EltTy.bits .f32 = 32 ∨ (Rect.block (s := S16384x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S16384x1024.size a
  hwx0_4 : ∀ i : grid0.Coords, EltTy.bits .f32 = 32 ∨ (Rect.block (s := S16384x1024) S256x1024.size (cc0_transform_4 i) (hinb0_4 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_v14) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1024x4096 : Shape := ⟨3, ![16, 1024, 4096]⟩
abbrev S16x1024x1024 : Shape := ⟨3, ![16, 1024, 1024]⟩
abbrev S1024x4096 : Shape := ⟨2, ![1024, 4096]⟩
abbrev S1024 : Shape := ⟨1, ![1024]⟩
abbrev S_ : Shape := ⟨0, ![]⟩
abbrev S1024x1 : Shape := ⟨2, ![1024, 1]⟩
abbrev S1x1x1024 : Shape := ⟨3, ![1, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S16x1024x4096, .f32⟩
  | .hbm, ⟨1, _⟩ => ⟨S16x1024x1024, .f32⟩
  | .hbm, ⟨2, _⟩ => ⟨S1024x4096, .f32⟩
  | .hbm, ⟨3, _⟩ => ⟨S1024, .f32⟩
  | .hbm, ⟨4, _⟩ => ⟨S1024x4096, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x4096, .f32⟩
  | .hbm, ⟨15, _⟩ => ⟨S1024x4096, .f32⟩
  | .hbm, ⟨16, _⟩ => ⟨S1024x4096, .f32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S1024x4096, .f32⟩
  | .hbm, ⟨21, _⟩ => ⟨S1024x4096, .f32⟩
  | .hbm, ⟨22, _⟩ => ⟨S_, .f32⟩
  | .hbm, ⟨23, _⟩ => ⟨S1024x4096, .f32⟩
  | .hbm, ⟨24, _⟩ => ⟨S1024x4096, .f32⟩
  | .hbm, ⟨25, _⟩ => ⟨S1024x4096, .f32⟩
  | .hbm, ⟨26, _⟩ => ⟨S1024x4096, .f32⟩
  | .hbm, ⟨27, _⟩ => ⟨S16x1024x1024, .f32⟩
  | .hbm, ⟨28, _⟩ => ⟨S1x1x1024, .f32⟩
  | .hbm, ⟨29, _⟩ => ⟨S16x1024x1024, .f32⟩
  | .hbm, ⟨30, _⟩ => ⟨S16x1024x1024, .f32⟩
  | .hbm, ⟨31, _⟩ => ⟨S16x1024x1024, .f32⟩
  | _, _ => ⟨S16x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]

class Facts₀ : Prop where
  reducesTo_S1024x4096_S1024_d1 : S1024x4096.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x4096_0_1 : S1024x1.BroadcastsInDim S1024x4096 (![0, 1] : Fin 2 → Fin S1024x4096.rank)
  bcast_S_S1024x4096 : S_.BroadcastsInDim S1024x4096 (![] : Fin 0 → Fin S1024x4096.rank)
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  dot_S16x1024x4096_S1024x4096_S16x1024x1024_2_1_01_0_n_n_wf : DotDims.WF S16x1024x4096 S1024x4096 S16x1024x1024 [2] [1] [0, 1] [0] [] []

variable [Facts₀]

def dot_S16x1024x4096_S1024x4096_S16x1024x1024_2_1_01_0_n_n : DotDims S16x1024x4096 S1024x4096 S16x1024x1024 where
  lhsContracting := [2]
  rhsContracting := [1]
  lhsNonContracting := [0, 1]
  rhsNonContracting := [0]
  lhsBatch := []
  rhsBatch := []
  wf := dot_S16x1024x4096_S1024x4096_S16x1024x1024_2_1_01_0_n_n_wf

class Facts : Prop extends Facts₀ where

variable [Facts]
-- ==== Proof.LibTransposedDot.lean ====
/-
  A matrix product with the right operand transposed, read at an index (program-independent; imports only the library).

  For the dimension numbers of the product of an `[M, K]` matrix by the TRANSPOSE of an `[N, K]` matrix — each
  operand's second axis contracted, no batch axis — the contraction index is one coordinate `k : Fin K`, the left
  operand is read at `(r, k)` and the right one at `(j, k)`. So at the ideal values both the kernel's matrix product
  into a zero accumulator and the host's general product are, at `(r, j)`, the sum over `k` of the products of the
  entries `(r, k)` and `(j, k)`: the inner product of row `r` of the left operand with row `j` of the right one.
-/
import Idealize.ShloMosaic.Lib.ValueIdx
import Idealize.ShloMosaic.PureOps.Ideal.Laws

noncomputable section

namespace Cert.TransposedDot

open Idealize.ShloMosaic Idealize.ShloMosaic.ValueIdx

/-- The contraction index of such a product is its one coordinate. -/
abbrev contrFin (M K N : ℕ) : (DotDims.transposedRhs M K N).contr.Idx ≃ Fin K :=
  contrEquiv1 (DotDims.transposedRhs M K N) K rfl rfl

/-- At output `(r, j)` and contraction coordinate `k` the left operand is read at `(r, k)`. -/
theorem lhsIdx_transposedRhs (M K N : ℕ) (r : Fin M) (j : Fin N) (k : Fin K) :
    (DotDims.transposedRhs M K N).lhsIdx (ix2 r j) ((contrFin M K N).symm k) = ix2 r k := by
  funext a; apply Fin.ext
  match a with
  | ⟨0, _⟩ => rfl
  | ⟨1, _⟩ =>
    refine ((DotDims.transposedRhs M K N).lhsIdx_val_of_single (cl := (1 : Fin 2)) rfl (ix2 r j) _).trans ?_
    exact contrEquiv1_symm_val (DotDims.transposedRhs M K N) K rfl rfl k

/-- At output `(r, j)` and contraction coordinate `k` the right operand is read at `(j, k)`. -/
theorem rhsIdx_transposedRhs (M K N : ℕ) (r : Fin M) (j : Fin N) (k : Fin K) :
    (DotDims.transposedRhs M K N).rhsIdx (ix2 r j) ((contrFin M K N).symm k) = ix2 j k := by
  funext a; apply Fin.ext
  match a with
  | ⟨0, _⟩ => rfl
  | ⟨1, _⟩ =>
    refine ((DotDims.transposedRhs M K N).rhsIdx_val_of_single (cr := (1 : Fin 2)) rfl (ix2 r j) _).trans ?_
    exact contrEquiv1_symm_val (DotDims.transposedRhs M K N) K rfl rfl k

/-- The contraction's sum of such a product at `(r, j)`, over the coordinate `k`. -/
theorem sum_transposedRhs {M K N : ℕ} (L : (⟨2, ![M, K]⟩ : Shape).Idx → EReal) (R : (⟨2, ![N, K]⟩ : Shape).Idx → EReal)
    (r : Fin M) (j : Fin N) :
    (∑ q : (DotDims.transposedRhs M K N).contr.Idx,
        L ((DotDims.transposedRhs M K N).lhsIdx (ix2 r j) q) * R ((DotDims.transposedRhs M K N).rhsIdx (ix2 r j) q))
      = ∑ k : Fin K, L (ix2 r k) * R (ix2 j k) := by
  rw [← Equiv.sum_comp (contrFin M K N).symm]
  exact Finset.sum_congr rfl fun k _ => by rw [lhsIdx_transposedRhs, rhsIdx_transposedRhs]

/-- At the ideal values the kernel's matrix product into the zero accumulator, read at `(r, j)`. -/
theorem matmul_transposedRhs_apply {M K N : ℕ} {φ₁ φ₂ : FTy} (prec : Option ContractPrecision)
    (lhs : FVec Ideal ⟨2, ![M, K]⟩ φ₁) (rhs : FVec Ideal ⟨2, ![N, K]⟩ φ₂) (r : Fin M) (j : Fin N) :
    FloatOps.matmul (DotDims.transposedRhs M K N) prec lhs rhs (constant ⟨2, ![M, N]⟩ .f32 0x00000000#32) (ix2 r j)
      = ∑ k : Fin K, lhs (ix2 r k) * rhs (ix2 j k) :=
  (Ideal.matmul_constant_zero_apply _ prec lhs rhs (ix2 r j)).trans (sum_transposedRhs lhs rhs r j)

/-- At the ideal values the host's general product, read at `(r, j)`. -/
theorem dotGeneral_transposedRhs_apply {M K N : ℕ} {φ₁ φ₂ : FTy} (prec : Option ContractPrecision) (sched : HostSchedule)
    (lhs : FVec Ideal ⟨2, ![M, K]⟩ φ₁) (rhs : FVec Ideal ⟨2, ![N, K]⟩ φ₂) (r : Fin M) (j : Fin N) :
    FloatOps.dotGeneral (DotDims.transposedRhs M K N) prec sched lhs rhs (ix2 r j)
      = ∑ k : Fin K, lhs (ix2 r k) * rhs (ix2 j k) :=
  (Ideal.dotGeneral_apply _ prec sched lhs rhs (ix2 r j)).trans (sum_transposedRhs lhs rhs r j)

end Cert.TransposedDot

end
-- ==== Proof.Body.lean ====
/-
  What the kernel's body stores, read at an entry.

  At one grid point the body holds a block of 256 rows of the activations (x, [256, 4096]), the whole quantized weight
  matrix (w, [1024, 4096]), the bias as a one-row matrix (b, [1, 1024]) and the matching 256 rows of the residual
  (r, [256, 1024]). It stores  (x · wᵀ + b) + r : the matrix product contracts the second axis of both operands and starts
  from the zero accumulator, so at the ideal values its entry (p, q) is the plain sum Σ_k x(p, k) · w(q, k); the change
  of float format in front of the product is the identity there, the casts to the same shape are identities, and the
  bias row is repeated over the 256 rows. So the stored entry (p, q) is

      (Σ_k x(p, k) · w(q, k) + b(0, q)) + r(p, q).
-/
import proofs.«166028_j48318382080289_2_alg».proof.Proof.Gen.KernelIdeal.Skeleton
import proofs.«166028_j48318382080289_2_alg».proof.Proof.LibTransposedDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-- Entry (p, q) of the block the body stores: the inner product of row p of the activations' block with row q of the
    weights, plus the bias at q, plus the residual block's entry (p, q). -/
theorem stored_apply (x : FVec Ideal S256x4096 .f32) (w : FVec Ideal S1024x4096 .bf16) (b : FVec Ideal S1x1024 .f32)
    (r : FVec Ideal S256x1024 .f32) (p : Fin 256) (q : Fin 1024) :
    k0_pay1 (F := Ideal) x w b r (ix2 p q)
      = (∑ k : Fin 4096, x (ix2 p k) * w (ix2 q k)) + b (ix2 (0 : Fin 1) q) + r (ix2 p q) := by
  unfold k0_pay1
  simp only [shapeCast_self]
  refine congrArg₂ (· + ·) (congrArg₂ (· + ·) ?_ ?_) rfl
  · exact Cert.TransposedDot.matmul_transposedRhs_apply (M := 256) (K := 4096) (N := 1024) none _ w p q
  · exact broadcastTo_1b_ab_apply b _ p q

end Cert.KernelIdeal.Body

end
-- ==== Proof.Layer.lean ====
/-
  The quantized linear layer with bias and residual, as one function of its arrays.

  For activations X of shape [16, 1024, 4096], quantized weights Q of shape [1024, 4096], a bias B of shape [1024] and a
  residual R of shape [16, 1024, 1024], the layer's output at (b, s, d) is

      (Σ_k X(b, s, k) · Q(d, k) + B(d)) + R(b, s, d),

  the sum over the 4096 input features. The same layer can be computed on the 16 · 1024 = 16384 rows laid out as one
  matrix: row r = 1024 · b + s of the matrix [16384, 4096] is row (b, s) of X, the bias is the one-row matrix [1, 1024],
  and the result [16384, 1024] is cut back into 16 batches of 1024 rows. Both arrangements keep the row-major order of the
  entries, so the two results agree entry by entry; nothing here depends on the entries being finite.
-/
import Idealize.ShloMosaic.Lib.ValueIdx
import Idealize.ShloMosaic.Lib.Pipeline.Value
import Idealize.ShloMosaic.Lib.ValueLayout

noncomputable section

namespace Cert.QuantLinear

open Idealize.ShloMosaic Idealize.ShloMosaic.ValueIdx

/-- The layer on the batched arrays: at (b, s, d) the inner product of row (b, s) of the activations with row d of the
    quantized weights, plus the bias at d, plus the residual at (b, s, d). -/
def layer (X : (⟨3, ![16, 1024, 4096]⟩ : Shape).Idx → EReal) (R : (⟨3, ![16, 1024, 1024]⟩ : Shape).Idx → EReal)
    (Q : (⟨2, ![1024, 4096]⟩ : Shape).Idx → EReal) (B : (⟨1, ![1024]⟩ : Shape).Idx → EReal) :
    (⟨3, ![16, 1024, 1024]⟩ : Shape).Idx → EReal :=
  fun i => (∑ k : Fin 4096, X (ix3 (i 0) (i 1) k) * Q (ix2 (i 2) k)) + B (ix1 (i 2)) + R i

/-- The layer on the rows laid out as one matrix: at (r, d) the inner product of row r of the activations with row d of
    the quantized weights, plus the bias row at d, plus the residual at (r, d). -/
def rowsLayer (X : (⟨2, ![16384, 4096]⟩ : Shape).Idx → EReal) (R : (⟨2, ![16384, 1024]⟩ : Shape).Idx → EReal)
    (Q : (⟨2, ![1024, 4096]⟩ : Shape).Idx → EReal) (B : (⟨2, ![1, 1024]⟩ : Shape).Idx → EReal) :
    (⟨2, ![16384, 1024]⟩ : Shape).Idx → EReal :=
  fun j => (∑ k : Fin 4096, X (ix2 (j 0) k) * Q (ix2 (j 1) k)) + B (ix2 (0 : Fin 1) (j 1)) + R j

variable {α : Type}

/-- 16 batches of 1024 rows laid out as 16384 rows: row 1024 · b + s of the matrix is row (b, s) of the array. -/
theorem rows_of_batches_apply {n : ℕ} (x : (⟨3, ![16, 1024, n]⟩ : Shape).Idx → α)
    (h : (⟨3, ![16, 1024, n]⟩ : Shape).ShapeCasts ⟨2, ![16384, n]⟩) (b : Fin 16) (s : Fin 1024) (r : Fin 16384) (k : Fin n)
    (hr : r.val = b.val * 1024 + s.val) :
    shapeCast ⟨2, ![16384, n]⟩ x h (ix2 r k) = x (ix3 b s k) :=
  shapeCast_apply x h _ _ (by
    rw [Shape.rowMajor_val_three, Shape.rowMajor_val_two]
    show (b.val * 1024 + s.val) * n + k.val = r.val * n + k.val
    rw [hr])

/-- 16384 rows cut into 16 batches of 1024 rows: row (b, s) of the array is row 1024 · b + s of the matrix. -/
theorem batches_of_rows_apply {n : ℕ} (y : (⟨2, ![16384, n]⟩ : Shape).Idx → α)
    (h : (⟨2, ![16384, n]⟩ : Shape).ShapeCasts ⟨3, ![16, 1024, n]⟩) (b : Fin 16) (s : Fin 1024) (r : Fin 16384) (k : Fin n)
    (hr : r.val = b.val * 1024 + s.val) :
    shapeCast ⟨3, ![16, 1024, n]⟩ y h (ix3 b s k) = y (ix2 r k) :=
  shapeCast_apply y h _ _ (by
    rw [Shape.rowMajor_val_three, Shape.rowMajor_val_two]
    show r.val * n + k.val = (b.val * 1024 + s.val) * n + k.val
    rw [hr])

/-- The row of the matrix that holds row (b, s) of a batched array. -/
def rowOf (b : Fin 16) (s : Fin 1024) : Fin 16384 := ⟨b.val * 1024 + s.val, by have := b.isLt; have := s.isLt; omega⟩

/-- The layer computed on the rows laid out as one matrix and cut back into batches is the layer on the batched
    arrays: each layout step keeps the row-major order, so entry (b, s, d) of the result is entry (1024 · b + s, d) of
    the matrix result, whose activations' row is row (b, s) of X and whose residual entry is R(b, s, d). -/
theorem batches_rowsLayer (X : (⟨3, ![16, 1024, 4096]⟩ : Shape).Idx → EReal) (R : (⟨3, ![16, 1024, 1024]⟩ : Shape).Idx → EReal)
    (Q : (⟨2, ![1024, 4096]⟩ : Shape).Idx → EReal) (B : (⟨1, ![1024]⟩ : Shape).Idx → EReal)
    (hX : (⟨3, ![16, 1024, 4096]⟩ : Shape).ShapeCasts ⟨2, ![16384, 4096]⟩)
    (hR : (⟨3, ![16, 1024, 1024]⟩ : Shape).ShapeCasts ⟨2, ![16384, 1024]⟩)
    (hB : (⟨1, ![1024]⟩ : Shape).ShapeCasts ⟨2, ![1, 1024]⟩)
    (hO : (⟨2, ![16384, 1024]⟩ : Shape).ShapeCasts ⟨3, ![16, 1024, 1024]⟩) :
    shapeCast ⟨3, ![16, 1024, 1024]⟩
        (rowsLayer (shapeCast ⟨2, ![16384, 4096]⟩ X hX) (shapeCast ⟨2, ![16384, 1024]⟩ R hR) Q (shapeCast ⟨2, ![1, 1024]⟩ B hB)) hO
      = layer X R Q B := by
  funext i
  obtain ⟨b, s, d, rfl⟩ : ∃ (b : Fin 16) (s : Fin 1024) (d : Fin 1024), i = ix3 b s d := ⟨i 0, i 1, i 2, eq_ix3 i⟩
  rw [batches_of_rows_apply _ hO b s (rowOf b s) d rfl]
  show (∑ k : Fin 4096, shapeCast ⟨2, ![16384, 4096]⟩ X hX (ix2 (rowOf b s) k) * Q (ix2 d k))
      + shapeCast ⟨2, ![1, 1024]⟩ B hB (ix2 (0 : Fin 1) d) + shapeCast ⟨2, ![16384, 1024]⟩ R hR (ix2 (rowOf b s) d)
    = (∑ k : Fin 4096, X (ix3 b s k) * Q (ix2 d k)) + B (ix1 d) + R (ix3 b s d)
  rw [rows_of_batches_apply R hR b s (rowOf b s) d rfl, shapeCast_a_1a_apply B hB 0 d]
  refine congrArg (· + B (ix1 d) + R (ix3 b s d)) (Finset.sum_congr rfl fun k _ => ?_)
  rw [rows_of_batches_apply X hX b s (rowOf b s) k rfl]

end Cert.QuantLinear

end
-- ==== Proof.Blocks.lean ====
/-
  From the blocks the grid points write back to the whole result matrix.

  The grid has 64 points. Point t works on rows [256 t, 256 t + 256) of the matrix of 16384 rows: it reads that band of
  the activations and of the residual, the whole quantized weight matrix and the whole bias row (the same at every
  point), and writes back that band of the result. An entry (p, q) of the band sits at row 256 t + p of the matrix, so
  what point t writes back is that band of the layer computed on the whole matrices (`rowsLayer`). Row r lies in
  the band of point r / 256, so the 64 bands cover the matrix, and after the region the result matrix is the layer of
  the matrices the region found.
-/
import proofs.«166028_j48318382080289_2_alg».proof.Proof.Gen.KernelIdeal.Frame
import proofs.«166028_j48318382080289_2_alg».proof.Proof.Body
import proofs.«166028_j48318382080289_2_alg».proof.Proof.Layer
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen Cert.QuantLinear

variable (m : (ℓ : Loc nD τ sig) → Buf (Elt Ideal) ℓ)

theorem offsets_zero : (![0, 0] : Fin 2 → Nat) = fun _ => 0 := funext fun a => by fin_cases a <;> rfl

/-- The block indices at point t: the activations', the residual's and the result's bands are band t of their rows and
    all their columns; the weights and the bias are one block, the same at every point. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The matrices the region finds: the activations' rows, the residual's rows, the quantized weights, the bias row. -/
abbrev actRows (c : Dev nD) : S16384x4096.Idx → EReal := V m c main_v14
abbrev resRows (c : Dev nD) : S16384x1024.Idx → EReal := V m c main_v15
abbrev weights (c : Dev nD) : S1024x4096.Idx → EReal := V m c main_v13
abbrev biasRow (c : Dev nD) : S1x1024.Idx → EReal := V m c main_v16

/-- The result matrix as a function of the matrices the region finds. -/
abbrev result (c : Dev nD) : S16384x1024.Idx → EReal :=
  rowsLayer (actRows m c) (resRows m c) (weights m c) (biasRow m c)

/-- Row 256 t + p of a matrix of 16384 rows. -/
def bandRow (t : Fin cfg0.N) (p : Fin 256) : Fin 16384 :=
  ⟨t.val * 256 + p.val, by have ht : t.val < 64 := t.isLt; have := p.isLt; omega⟩

/-- What point t writes back is band t of the layer on the whole matrices. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  unfold out0_4
  rw [View.canon_unit_zero offsets_zero]
  simp only [View.ld_unit_zero (S := S256x4096) offsets_zero, View.ld_unit_zero (S := S1024x4096) offsets_zero,
    View.ld_unit_zero (S := S1x1024) offsets_zero, View.ld_unit_zero (S := S256x1024) offsets_zero]
  obtain ⟨e00, e01, e10, e11, e20, e21, e30, e31, e40, e41⟩ := block_indices t
  funext j
  obtain ⟨p, q, rfl⟩ : ∃ (p : Fin 256) (q : Fin 1024), j = ix2 p q := ⟨j 0, j 1, eq_ix2 j⟩
  have h4 : (((cfg0.win 4).blk t).view.emb (ix2 p q) : S16384x1024.Idx) = ix2 (bandRow t p) q := by
    funext a; apply Fin.ext
    match a with
    | ⟨0, _⟩ => show win0_4.index t (0 : Fin 2) * 256 + 1 * p.val = t.val * 256 + p.val; omega
    | ⟨1, _⟩ => show win0_4.index t (1 : Fin 2) * 1024 + 1 * q.val = q.val; omega
  have h3 : (((cfg0.win 3).blk t).view.emb (ix2 p q) : S16384x1024.Idx) = ix2 (bandRow t p) q := by
    funext a; apply Fin.ext
    match a with
    | ⟨0, _⟩ => show win0_3.index t (0 : Fin 2) * 256 + 1 * p.val = t.val * 256 + p.val; omega
    | ⟨1, _⟩ => show win0_3.index t (1 : Fin 2) * 1024 + 1 * q.val = q.val; omega
  have h2 : (((cfg0.win 2).blk t).view.emb (ix2 (0 : Fin 1) q) : S1x1024.Idx) = ix2 (0 : Fin 1) q := by
    funext a; apply Fin.ext
    match a with
    | ⟨0, _⟩ => show win0_2.index t (0 : Fin 2) * 1 + 1 * 0 = 0; omega
    | ⟨1, _⟩ => show win0_2.index t (1 : Fin 2) * 1024 + 1 * q.val = q.val; omega
  have h1 : ∀ k : Fin 4096, (((cfg0.win 1).blk t).view.emb (ix2 q k) : S1024x4096.Idx) = ix2 q k := fun k => by
    funext a; apply Fin.ext
    match a with
    | ⟨0, _⟩ => show win0_1.index t (0 : Fin 2) * 1024 + 1 * q.val = q.val; omega
    | ⟨1, _⟩ => show win0_1.index t (1 : Fin 2) * 4096 + 1 * k.val = k.val; omega
  have h0 : ∀ k : Fin 4096, (((cfg0.win 0).blk t).view.emb (ix2 p k) : S16384x4096.Idx) = ix2 (bandRow t p) k := fun k => by
    funext a; apply Fin.ext
    match a with
    | ⟨0, _⟩ => show win0_0.index t (0 : Fin 2) * 256 + 1 * p.val = t.val * 256 + p.val; omega
    | ⟨1, _⟩ => show win0_0.index t (1 : Fin 2) * 4096 + 1 * k.val = k.val; omega
  show k0_pay1 (F := Ideal) (iblk m c 0 t) (iblk m c 1 t) (iblk m c 2 t) (iblk m c 3 t) (ix2 p q)
    = result m c (((cfg0.win 4).blk t).view.emb (ix2 p q))
  rw [h4]
  refine (Body.stored_apply (iblk m c 0 t) (iblk m c 1 t) (iblk m c 2 t) (iblk m c 3 t) p q).trans ?_
  show (∑ k : Fin 4096, actRows m c (((cfg0.win 0).blk t).view.emb (ix2 p k)) * weights m c (((cfg0.win 1).blk t).view.emb (ix2 q k)))
      + biasRow m c (((cfg0.win 2).blk t).view.emb (ix2 (0 : Fin 1) q)) + resRows m c (((cfg0.win 3).blk t).view.emb (ix2 p q))
    = (∑ k : Fin 4096, actRows m c (ix2 (bandRow t p) k) * weights m c (ix2 q k))
      + biasRow m c (ix2 (0 : Fin 1) q) + resRows m c (ix2 (bandRow t p) q)
  rw [h2, h3]
  refine congrArg (· + biasRow m c (ix2 (0 : Fin 1) q) + resRows m c (ix2 (bandRow t p) q)) (Finset.sum_congr rfl fun k _ => ?_)
  rw [h0 k, h1 k]

/-- An entry of the matrix is in point t's band iff each coordinate is in the band's range on its axis. -/
theorem mem_band (t : Fin cfg0.N) (i : S16384x1024.Idx) :
    i ∈ ((cfg0.win 4).blk t).view.set ↔ ∀ a : Fin 2, win0_4.index t a * S256x1024.size a ≤ (i a).val
      ∧ (i a).val < win0_4.index t a * S256x1024.size a + S256x1024.size a := by
  show i ∈ ((View.whole main_v17).slice (win0_4.rect t)).set ↔ _
  rw [View.set_slice_whole, Rect.mem_set_unit]
  exact Iff.rfl

/-- Every entry of the matrix is in the band of some point that writes back: row r is in band r / 256. -/
theorem covered (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  have hlt : (i 0).val / 256 < 64 := by omega
  obtain ⟨t, ht⟩ : ∃ t : Fin cfg0.N, t.val = (i 0).val / 256 := ⟨⟨(i 0).val / 256, hlt⟩, rfl⟩
  obtain ⟨-, -, -, -, -, -, -, -, e40, e41⟩ := block_indices t
  refine ⟨t, flush0_4 t, ?_⟩
  rw [mem_band]
  intro a
  match a with
  | ⟨0, _⟩ =>
    show win0_4.index t (0 : Fin 2) * 256 ≤ (i 0).val ∧ (i 0).val < win0_4.index t (0 : Fin 2) * 256 + 256
    omega
  | ⟨1, _⟩ =>
    show win0_4.index t (1 : Fin 2) * 1024 ≤ (i 1).val ∧ (i 1).val < win0_4.index t (1 : Fin 2) * 1024 + 1024
    omega

/-- After the region the result matrix is the layer of the matrices the region found. -/
theorem final (c : Dev nD) : (dats m 0 c).arrAt 4 cfg0.N = result m c :=
  (dats m 0 c).arrAt_eq_of_cover 4 (result m c) (fun t _ => flushed_eq m c t) covered

end Cert.KernelIdeal.Blocks

end
-- ==== Proof.Entry.lean ====
/-
  The arrays the kernel's region finds.

  Before the region the program lays the activations [16, 1024, 4096] out as the matrix [16384, 4096], the residual
  [16, 1024, 1024] as [16384, 1024] and the bias [1024] as the one-row matrix [1, 1024] — each keeps the row-major order
  of its entries — and derives the quantized weights from W by the chain of operations the reference applies to W as
  well (absolute value, row maximum, the floor on the scale, the division by 127, rounding, clipping to [-128, 127],
  the product with the scale), followed by a change of float format that is the identity at the ideal values.
-/
import proofs.«166028_j48318382080289_2_alg».proof.Proof.Gen.KernelIdeal.Frame
import Idealize.ShloMosaic.PureOps.Ideal

noncomputable section

namespace Cert.KernelIdeal.Entry

open Idealize.ShloMosaic Idealize.ShloMosaic.TcCoe Idealize.SL.Sem Cert.KernelIdeal Cert.KernelIdeal.Gen

variable (m : (ℓ : Loc nD τ sig) → Buf (Elt Ideal) ℓ)

/-- The quantized weights as the program computes them from W, one operation per line of the program. -/
def quantized (W : (⟨S1024x4096, .f32⟩ : BufTy).Contents (Elt Ideal)) : (⟨S1024x4096, .f32⟩ : BufTy).Contents (Elt Ideal) :=
  mulf (minimumf (broadcastInDim S1024x4096 ![] bcast_S_S1024x4096 (sitofp (F := Ideal) .f32 (constantI S_ 32 127#32))) (maximumf (broadcastInDim S1024x4096 ![] bcast_S_S1024x4096 (sitofp (F := Ideal) .f32 (constantI S_ 32 4294967168#32))) (Host.roundeven (F := Ideal) (Host.divf (F := Ideal) W (broadcastInDim S1024x4096 ![0, 1] bcast_S1024x1_S1024x4096_0_1 (Host.divf (F := Ideal) (maximumf (broadcastInDim S1024x1 ![0] bcast_S1024_S1024x1_0 (Host.reduce FloatOps.maximumf (Host.absf (F := Ideal) W) (constant (F := Ideal) S_ .f32 0xFF800000#32) reducesTo_S1024x4096_S1024_d1 h_S_)) (broadcastInDim S1024x1 ![] bcast_S_S1024x1 (constant (F := Ideal) S_ .f32 0x322BCC77#32))) (broadcastInDim S1024x1 ![] bcast_S_S1024x1 (constant (F := Ideal) S_ .f32 0x42FE0000#32)))))))) (broadcastInDim S1024x4096 ![0, 1] bcast_S1024x1_S1024x4096_0_1 (Host.divf (F := Ideal) (maximumf (broadcastInDim S1024x1 ![0] bcast_S1024_S1024x1_0 (Host.reduce FloatOps.maximumf (Host.absf (F := Ideal) W) (constant (F := Ideal) S_ .f32 0xFF800000#32) reducesTo_S1024x4096_S1024_d1 h_S_)) (broadcastInDim S1024x1 ![] bcast_S_S1024x1 (constant (F := Ideal) S_ .f32 0x322BCC77#32))) (broadcastInDim S1024x1 ![] bcast_S_S1024x1 (constant (F := Ideal) S_ .f32 0x42FE0000#32))))

/-- The activations as 16384 rows. -/
theorem V_rows (c : Dev nD) :
    (V m c main_v14 : S16384x4096.Idx → EReal)
      = shapeCast S16384x4096 (m ((c : Thread nD τ).loc main_arg0)) shapeCasts_S16x1024x4096_S16384x4096 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results; rfl

/-- The residual as 16384 rows. -/
theorem V_resid (c : Dev nD) :
    (V m c main_v15 : S16384x1024.Idx → EReal)
      = shapeCast S16384x1024 (m ((c : Thread nD τ).loc main_arg1)) shapeCasts_S16x1024x1024_S16384x1024 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results; rfl

/-- The bias as a one-row matrix. -/
theorem V_bias (c : Dev nD) :
    (V m c main_v16 : S1x1024.Idx → EReal)
      = shapeCast S1x1024 (m ((c : Thread nD τ).loc main_arg3)) shapeCasts_S1024_S1x1024 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results; rfl

/-- The weights the region finds: the quantized weights of W, their change of float format the identity. -/
theorem V_weights (c : Dev nD) :
    (V m c main_v13 : S1024x4096.Idx → EReal) = quantized (m ((c : Thread nD τ).loc main_arg2)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results; rfl

end Cert.KernelIdeal.Entry

end
-- ==== Proof.KernelValue.lean ====
/-
  The kernel program's result.

  After the region the program cuts the result matrix [16384, 1024] back into 16 batches of 1024 rows. The result matrix
  is the layer on the matrices the region found (the activations and the residual laid out by rows, the bias as one row,
  the quantized weights); all three layout steps keep the row-major order, so the program's result is the layer on the
  batched arguments at the quantized weights of W.
-/
import proofs.«166028_j48318382080289_2_alg».proof.Proof.Blocks
import proofs.«166028_j48318382080289_2_alg».proof.Proof.Entry

noncomputable section

namespace Cert.KernelIdeal.KernelValue

open Idealize.ShloMosaic Idealize.ShloMosaic.TcCoe Idealize.SL.Sem Idealize.ShloMosaic.ValueIdx
open Cert.KernelIdeal Cert.KernelIdeal.Gen Cert.QuantLinear

variable (m : (ℓ : Loc nD τ sig) → Buf (Elt Ideal) ℓ) (ρ : Dev nD → PrngReg)

/-- The program's result is the result matrix the region leaves, cut into 16 batches of 1024 rows. -/
theorem tail_eq (c : Dev nD) :
    (Pipeline.afterTail₀ cfgs (dats m) 0 (V0 m) [hostOps1] c main_v18 : S16x1024x1024.Idx → EReal)
      = shapeCast S16x1024x1024 (Blocks.result m c) shapeCasts_S16384x1024_S16x1024x1024 := by
  unfold Pipeline.afterTail₀
  show StableHlo.after hostOps1 _ (Proc.devRef .tc main_v18) = _
  after_results
  exact congrArg (fun A : S16384x1024.Idx → EReal => shapeCast S16x1024x1024 A shapeCasts_S16384x1024_S16x1024x1024)
    ((Pipeline.withArrays_arr spec0 launch0.win.arr_inj c _ _ 4).trans (Blocks.final m c))

/-- Cut into batches, the result matrix is the layer of the batched arguments at the quantized weights. -/
theorem batches_result (c : Dev nD) :
    shapeCast S16x1024x1024 (Blocks.result m c) shapeCasts_S16384x1024_S16x1024x1024
      = layer (m ((c : Thread nD τ).loc main_arg0)) (m ((c : Thread nD τ).loc main_arg1))
          (Entry.quantized (m ((c : Thread nD τ).loc main_arg2))) (m ((c : Thread nD τ).loc main_arg3)) := by
  show shapeCast S16x1024x1024 (rowsLayer (V m c main_v14 : S16384x4096.Idx → EReal) (V m c main_v15 : S16384x1024.Idx → EReal)
      (V m c main_v13 : S1024x4096.Idx → EReal) (V m c main_v16 : S1x1024.Idx → EReal)) shapeCasts_S16384x1024_S16x1024x1024 = _
  rw [Entry.V_rows m c, Entry.V_resid m c, Entry.V_weights m c, Entry.V_bias m c]
  exact batches_rowsLayer _ _ _ _ shapeCasts_S16x1024x4096_S16384x4096 shapeCasts_S16x1024x1024_S16384x1024
    shapeCasts_S1024_S1x1024 shapeCasts_S16384x1024_S16x1024x1024

/-- Every weakly fair execution of the kernel program terminates with its result at the layer of its arguments, at the
    quantized weights of W, and its arguments unchanged. -/
theorem run : θ_run defs (onTc (τ := τ) (main (F := Ideal))) ⟨m, fun _ => 0, ρ⟩ fun r => ∀ c : Dev nD,
      r.2.mem ((c.tc : Thread nD τ).loc main_v18)
        = layer (m ((c.tc : Thread nD τ).loc main_arg0)) (m ((c.tc : Thread nD τ).loc main_arg1))
            (Entry.quantized (m ((c.tc : Thread nD τ).loc main_arg2))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(((h c).2 main_v18 (Pipeline.mem_restRefs_of main_v18 (by decide) (by decide))).trans (tail_eq m c)).trans (batches_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue

end
-- ==== Proof.RefValue.lean ====
/-
  The reference computes the layer.

  The reference multiplies the batched activations [16, 1024, 4096] by the quantized weights [1024, 4096], contracting
  the feature axis of both; adds the bias, placed along the last axis and repeated over batches and rows; and adds the
  residual. Read at (b, s, d) that is  (Σ_k X(b, s, k) · Q(d, k) + B(d)) + R(b, s, d)  with Q the quantized weights the
  reference derives from W — the function `layer` at those weights. The quantization itself is never opened.
-/
import proofs.«166028_j48318382080289_2_alg».proof.Proof.Gen.ReferenceIdeal.Read
import proofs.«166028_j48318382080289_2_alg».proof.Proof.Layer

noncomputable section

namespace Cert.ReferenceIdeal.RefValue

open Idealize.ShloMosaic Idealize.ShloMosaic.ValueIdx Cert.ReferenceIdeal Cert.ReferenceIdeal.Read Cert.QuantLinear

/-- The reference's result is the layer of its arguments at the quantized weights it computes from W. -/
theorem result_eq (X : (⟨S16x1024x4096, .f32⟩ : BufTy).Contents (Elt Ideal)) (R : (⟨S16x1024x1024, .f32⟩ : BufTy).Contents (Elt Ideal))
    (W : (⟨S1024x4096, .f32⟩ : BufTy).Contents (Elt Ideal)) (B : (⟨S1024, .f32⟩ : BufTy).Contents (Elt Ideal)) :
    val_main_v17 (F := Ideal) X R W B = layer X R (val_main_v12 (F := Ideal) W) B := by
  funext i
  obtain ⟨b, s, d, rfl⟩ : ∃ (b : Fin 16) (s : Fin 1024) (d : Fin 1024), i = ix3 b s d := ⟨i 0, i 1, i 2, eq_ix3 i⟩
  have e1 : ∀ k : Fin 4096, lidx_main_v13 (ix3 b s d) k = ix3 b s k := fun k => funext fun a => Fin.ext (by
    match a with | ⟨0, _⟩ => rfl | ⟨1, _⟩ => rfl | ⟨2, _⟩ => rfl)
  have e2 : ∀ k : Fin 4096, ridx_main_v13 (ix3 b s d) k = ix2 d k := fun k => funext fun a => Fin.ext (by
    match a with | ⟨0, _⟩ => rfl | ⟨1, _⟩ => rfl)
  have e3 : idx_main_v14 (idx_main_v15 (ix3 b s d)) = ix1 d := funext fun a => Fin.ext (by
    match a with | ⟨0, _⟩ => rfl)
  rw [val_main_v17_apply, val_main_v16_apply, val_main_v13_apply, val_main_v15_apply, val_main_v14_apply]
  simp only [e1, e2, e3]
  rfl

end Cert.ReferenceIdeal.RefValue

end
-- ==== Proof.lean ====
/-
  A quantized linear layer with bias and residual: the kernel and its reference compute the same function.

  Both programs quantize the weight matrix W [1024, 4096] by the same chain of operations — per row, the scale is
  max(max_k |W(d, k)|, 1e-8) / 127, the entry is W / scale rounded to the nearest even integer, clipped to [-128, 127]
  and multiplied by the scale again — and then compute, for activations X [16, 1024, 4096], bias B [1024] and residual
  R [16, 1024, 1024],

      out(b, s, d) = (Σ_k X(b, s, k) · Q(d, k) + B(d)) + R(b, s, d)        (Q the quantized weights).

  The reference does it with one contraction over the batched activations. The kernel lays the 16 · 1024 rows out as one
  matrix, walks it in 64 bands of 256 rows — each band multiplied by the transpose of the whole weight matrix, the bias
  row and the band's residual added — and cuts the result back into batches. At the ideal values the changes of float
  format are identities and a matrix product into a zero accumulator is the plain sum, so both results are the
  function `layer` at the same quantized weights; the quantization chain is carried as one function of W and never
  opened, and no step needs the entries to be finite (only the order of layout and the grouping of the three-term sum
  matter, and they agree).

  The modules: Layer (the function, on batches and on rows, and that the two agree), Body (one band's stored entry),
  Entry (the matrices the kernel's region finds), Blocks (the 64 bands make the whole result matrix), KernelValue (the
  kernel program's run), RefValue (the reference's result is the layer).
-/
import proofs.«166028_j48318382080289_2_alg».proof.Defs
import proofs.«166028_j48318382080289_2_alg».proof.Proof.Gen.Kernel
import proofs.«166028_j48318382080289_2_alg».proof.Proof.Gen.Kernel.Skeleton
import proofs.«166028_j48318382080289_2_alg».proof.Proof.Gen.Kernel.Launch
import proofs.«166028_j48318382080289_2_alg».proof.Proof.Gen.Kernel.Points
import proofs.«166028_j48318382080289_2_alg».proof.Proof.Gen.Kernel.Frame
import proofs.«166028_j48318382080289_2_alg».proof.Proof.Gen.KernelIdeal
import proofs.«166028_j48318382080289_2_alg».proof.Proof.Gen.KernelIdeal.Skeleton
import proofs.«166028_j48318382080289_2_alg».proof.Proof.Gen.KernelIdeal.Launch
import proofs.«166028_j48318382080289_2_alg».proof.Proof.Gen.KernelIdeal.Points
import proofs.«166028_j48318382080289_2_alg».proof.Proof.Gen.KernelIdeal.Frame
import proofs.«166028_j48318382080289_2_alg».proof.Proof.Gen.ReferenceIdeal
import proofs.«166028_j48318382080289_2_alg».proof.Proof.Gen.ReferenceIdeal.Run
import proofs.«166028_j48318382080289_2_alg».proof.Proof.Gen.ReferenceIdeal.Read
import proofs.«166028_j48318382080289_2_alg».proof.Proof.Gen.Pre_finite_inputs
import proofs.«166028_j48318382080289_2_alg».proof.Proof.KernelValue
import proofs.«166028_j48318382080289_2_alg».proof.Proof.RefValue
import Idealize.ShloMosaic.Adequacy
import Idealize.ShloMosaic.Init

noncomputable section

namespace Cert.Proof

open Idealize.ShloMosaic Idealize.SL.Sem

/-- The kernel program at the machine's words runs, and its arguments end unchanged. -/
theorem frame_kernel : Cert.frame_Kernel := fun m ρ _ => Cert.Kernel.Gen.frame m ρ

/-- The idealized kernel program runs, and its arguments end unchanged. -/
theorem frame_kernel_ideal : Cert.frame_KernelIdeal := fun m ρ _ => Cert.KernelIdeal.Gen.frame m ρ

/-- The idealized reference runs, and its arguments end unchanged: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The quantized weights the kernel program derives from W are the ones the reference derives: the same operations in
    the same order on the same array. -/
theorem quantized_eq (W : (⟨Cert.ReferenceIdeal.S1024x4096, .f32⟩ : BufTy).Contents (Elt Ideal)) :
    Cert.ReferenceIdeal.Read.val_main_v12 (F := Ideal) W = Cert.KernelIdeal.Entry.quantized W := rfl

/-- From memories that agree on the arguments both idealized programs run, and both results are the layer of the
    arguments at the quantized weights of W. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq, quantized_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
